-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) (main_arg3 : IVec S4096x4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S2048x256 : Shape := ⟨2, ![2048, 256]⟩
abbrev S1024x256 : Shape := ⟨2, ![1024, 256]⟩
abbrev S1x1024 : Shape := ⟨2, ![1, 1024]⟩
abbrev S2048x1024 : Shape := ⟨2, ![2048, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S1x4096, .f32⟩
  | .hbm, ⟨5, _⟩ => ⟨S4096x4096, .bf16⟩
  | .hbm, ⟨6, _⟩ => ⟨S4096x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S1024x256, .bf16⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 16], ![false, false, false]⟩

def k0_cond2 (i : grid0.Coords) : BitVec 1 :=
  let arg2 : BitVec 32 := BitVec.ofNat 32 (i 2).val
  let c15_i32 : BitVec 32 := 15#32
  let v16 : BitVec 1 := Scalar.cmpi .eq arg2 c15_i32
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x4096.size a
  hwx0_0 : ∀ i : grid0.Coords, EltTy.bits .f32 = 32 ∨ (Rect.block (s := S4096x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x4096.size a
  hwx0_2 : ∀ i : grid0.Coords, EltTy.bits .bf16 = 32 ∨ (Rect.block (s := S4096x4096) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S4096x4096.size a
  hwx0_4 : ∀ i : grid0.Coords, EltTy.bits .f32 = 32 ∨ (Rect.block (s := S4096x4096) S2048x1024.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S1x4096, .f32⟩
  | .hbm, ⟨8, _⟩ => ⟨S4096x4096, .f32⟩
  | .hbm, ⟨9, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Pieces.lean ====
/-
  What one call of the kernel body leaves behind, case by case, as the body's own arithmetic (the payload terms) of
  what its loads read. Every load and store of the body goes through a whole buffer, so each buffer ends holding the
  payload of the last store into it, and a load that follows a store into the same buffer reads that store's payload.
  Generic in the float instance: nothing here looks inside the arithmetic.
-/
import proofs.«163842_j4449586118868_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every access of the body starts at the origin of its buffer. -/
theorem hz : (![0, 0] : Fin 2 → Nat) = fun _ => 0 := funext fun a => by fin_cases a <;> rfl

/-- A point in the middle of a run over the contraction bands: the scratch, holding `xs0`, ends holding
    `xs0 + (x block)·(masked w block)ᵀ` — the one store that covers it, its four loads reading whole buffers. -/
theorem sout_B (c : Dev nD) (i : grid0.Coords) (a3 : Memref sig .tc .vmem S2048x256 .f32) (h3 : a3.IsWhole) (a4 : Memref sig .tc .vmem S1024x256 .f32) (h4 : a4.IsWhole) (a5 : Memref sig .tc .vmem S1024x256 .bf16) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : ¬cond0_1 i)
    (x0 : Vec F S2048x256 .f32) (x1 : Vec F S1024x256 .f32) (x2 : Vec F S1024x256 .bf16) (x3 : Vec F S1x1024 .f32) (xs0 : Vec F S2048x1024 .f32) :
    sout0_B_0 c i a3 h3 a4 h4 a5 h5 a6 h6 a7 h7 a8 h8 hc0 hc1 x0 x1 x2 x3 xs0 = k0_pay2 x1 x2 x0 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  rw [View.canon_unit_zero hz]
  simp only [View.readAt_eq_ld, h3.read_unread, h4.read_unread, h5.read_unread, h6.read_unread, h8.read_unread,
    View.ld_unit_zero (S := S1024x256) hz, View.ld_unit_zero (S := S2048x256) hz, View.ld_unit_zero (S := S2048x1024) hz,
    View.ld_unit_zero (S := S1x1024) hz]

/-- The last point of a run updates the scratch in the same way, -/
theorem sout_C (c : Dev nD) (i : grid0.Coords) (a3 : Memref sig .tc .vmem S2048x256 .f32) (h3 : a3.IsWhole) (a4 : Memref sig .tc .vmem S1024x256 .f32) (h4 : a4.IsWhole) (a5 : Memref sig .tc .vmem S1024x256 .bf16) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : cond0_1 i)
    (x0 : Vec F S2048x256 .f32) (x1 : Vec F S1024x256 .f32) (x2 : Vec F S1024x256 .bf16) (x3 : Vec F S1x1024 .f32) (xs0 : Vec F S2048x1024 .f32) :
    sout0_C_0 c i a3 h3 a4 h4 a5 h5 a6 h6 a7 h7 a8 h8 hc0 hc1 x0 x1 x2 x3 xs0 = k0_pay2 x1 x2 x0 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h6.read_unread, h8.read_unread,
    View.ld_unit_zero (S := S1024x256) hz, View.ld_unit_zero (S := S2048x256) hz, View.ld_unit_zero (S := S2048x1024) hz,
    View.ld_unit_zero (S := S1x1024) hz]

/-- and stores the output block: the updated scratch, read back, minus the bias row repeated down the rows. -/
theorem out_C (c : Dev nD) (i : grid0.Coords) (a3 : Memref sig .tc .vmem S2048x256 .f32) (h3 : a3.IsWhole) (a4 : Memref sig .tc .vmem S1024x256 .f32) (h4 : a4.IsWhole) (a5 : Memref sig .tc .vmem S1024x256 .bf16) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : cond0_1 i)
    (x0 : Vec F S2048x256 .f32) (x1 : Vec F S1024x256 .f32) (x2 : Vec F S1024x256 .bf16) (x3 : Vec F S1x1024 .f32) (xs0 : Vec F S2048x1024 .f32) :
    out0_C_4 c i a3 h3 a4 h4 a5 h5 a6 h6 a7 h7 a8 h8 hc0 hc1 x0 x1 x2 x3 xs0 = k0_pay3 (k0_pay2 x1 x2 x0 xs0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz, View.readCov_unit_zero (S := S2048x1024) _ hz]
  simp only [View.readAt_eq_ld, h3.read_unread, h4.read_unread, h5.read_unread, h6.read_unread, h8.read_unread,
    View.ld_unit_zero (S := S1024x256) hz, View.ld_unit_zero (S := S2048x256) hz, View.ld_unit_zero (S := S2048x1024) hz,
    View.ld_unit_zero (S := S1x1024) hz]

/-- The first point of a run: the scratch is first stored whole with zeros, read back, and updated; whatever it held
    before does not enter. -/
theorem sout_A (c : Dev nD) (i : grid0.Coords) (a3 : Memref sig .tc .vmem S2048x256 .f32) (h3 : a3.IsWhole) (a4 : Memref sig .tc .vmem S1024x256 .f32) (h4 : a4.IsWhole) (a5 : Memref sig .tc .vmem S1024x256 .bf16) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : cond0_0 i) (hc1 : ¬cond0_1 i)
    (x0 : Vec F S2048x256 .f32) (x1 : Vec F S1024x256 .f32) (x2 : Vec F S1024x256 .bf16) (x3 : Vec F S1x1024 .f32) :
    sout0_A_0 c i a3 h3 a4 h4 a5 h5 a6 h6 a7 h7 a8 h8 hc0 hc1 x0 x1 x2 x3 = k0_pay2 x1 x2 x0 k0_pay1 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S2048x1024) hz, View.readCov_unit_zero (S := S2048x1024) _ hz]
  simp only [View.readAt_eq_ld, h3.read_unread, h4.read_unread, h5.read_unread, h6.read_unread, h8.read_unread,
    View.ld_unit_zero (S := S1024x256) hz, View.ld_unit_zero (S := S2048x256) hz, View.ld_unit_zero (S := S2048x1024) hz,
    View.ld_unit_zero (S := S1x1024) hz]

end Cert.KernelIdeal.Pieces

end
-- ==== Proof.Steps.lean ====
/-
  What each grid point leaves, as the body's arithmetic of the point's own blocks and of what the point before left:
    at the first point of a run (n ≡ 0 mod 16) the scratch is the update of the zero block;
    at every other point it is the update of what the point before left;
    at the last point of a run (n ≡ 15 mod 16) the output block is that point's scratch minus the bias row.
  Generic in the float instance.
-/
import proofs.«163842_j4449586118868_2_alg».proof.Proof.Pieces

noncomputable section

open Idealize.ShloMosaic Idealize.ShloMosaic.TcCoe Idealize.SL.Sem

namespace Cert.KernelIdeal.Steps

open Cert.KernelIdeal Cert.KernelIdeal.Gen Cert.KernelIdeal.Pieces

variable {F : FTy → Type} [FloatOps F]
variable (m : (ℓ : Loc nD τ sig) → Buf (Elt F) ℓ)

/-- The first point of a run. -/
theorem scratch_first (c : Dev nD) (t : Fin cfg0.N) (h0 : t.val % 16 = 0) :
    (outsAt0 m c t.val t.isLt).2 = k0_pay2 (iblk m c 1 t) (iblk m c 2 t) (iblk m c 0 t) k0_pay1 := by
  have h1 : ¬t.val % 16 = 15 := by omega
  rw [outsAt0_A m c t h0 h1]
  dsimp only
  exact sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- Any later point of a run. -/
theorem scratch_next (c : Dev nD) (t : Fin cfg0.N) (h0 : ¬t.val % 16 = 0) :
    (outsAt0 m c t.val t.isLt).2 = k0_pay2 (iblk m c 1 t) (iblk m c 2 t) (iblk m c 0 t) (outsAt0 m c (t.val - 1) (Nat.lt_of_le_of_lt (Nat.sub_le _ _) t.isLt)).2 := by
  by_cases h1 : t.val % 16 = 15
  · rw [outsAt0_C m c t h0 h1]
    dsimp only
    exact sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact sout_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- The last point of a run stores the output block from the scratch it has just updated. -/
theorem out_last (c : Dev nD) (t : Fin cfg0.N) (h1 : t.val % 16 = 15) :
    (outsAt0 m c t.val t.isLt).1 = k0_pay3 (outsAt0 m c t.val t.isLt).2 (iblk m c 3 t) := by
  have h0 : ¬t.val % 16 = 0 := by omega
  rw [outsAt0_C m c t h0 h1]
  dsimp only
  rw [sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2]
  exact out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

end Cert.KernelIdeal.Steps

end
-- ==== Proof.PayloadAt.lean ====
/-
  The body's three payloads read at an entry, on the extended reals.
  Changing the float format is the identity there and a reshape to the same shape moves nothing, so:
    the zero block is 0 at every entry;
    the update is  acc(r, q) + Σ_j x(r, j) · (w(q, j) · m(q, j))  over the 256 positions of the band held in the blocks
      (the product unit contracts axis 1 of both operands and starts from zeros);
    the output is  acc(r, q) − b(0, q): the one bias row repeated down the rows.
-/
import proofs.«163842_j4449586118868_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.PayloadAt

open Cert.KernelIdeal Cert.KernelIdeal.Gen Idealize.ShloMosaic Idealize.ShloMosaic.ValueIdx

/-- The product's dimension numbers: [2048, 256] against [1024, 256], contracting axis 1 of both. -/
abbrev D : DotDims S2048x256 S1024x256 S2048x1024 := dot_S2048x256_S1024x256_S2048x1024_1_1_0_0_n_n

/-- At output entry i and contraction position q the left operand is read at (i₀, q) -/
theorem lhs_0 (i : S2048x1024.Idx) (q : D.contr.Idx) : (D.lhsIdx i q 0).val = (i 0).val := by
  unfold DotDims.lhsIdx
  rw [dif_neg (show ¬(0 : Fin S2048x256.rank) ∈ D.lhsBatch by decide), dif_pos (show (0 : Fin S2048x256.rank) ∈ D.lhsNonContracting by decide)]
  rfl
theorem lhs_1 (i : S2048x1024.Idx) (q : D.contr.Idx) : (D.lhsIdx i q 1).val = (q ⟨0, by decide⟩).val :=
  D.lhsIdx_val_of_single rfl i q
/-- and the right operand at (i₁, q). -/
theorem rhs_0 (i : S2048x1024.Idx) (q : D.contr.Idx) : (D.rhsIdx i q 0).val = (i 1).val := by
  unfold DotDims.rhsIdx
  rw [dif_neg (show ¬(0 : Fin S1024x256.rank) ∈ D.rhsBatch by decide), dif_pos (show (0 : Fin S1024x256.rank) ∈ D.rhsNonContracting by decide)]
  rfl
theorem rhs_1 (i : S2048x1024.Idx) (q : D.contr.Idx) : (D.rhsIdx i q 1).val = (q ⟨0, by decide⟩).val :=
  D.rhsIdx_val_of_single rfl i q

/-- The product into zeros, at entry (r, q): row r of the left operand against row q of the right. -/
theorem matmul_at (a : FVec Ideal S2048x256 .bf16) (b : FVec Ideal S1024x256 .bf16) (r : Fin 2048) (q : Fin 1024) :
    FloatOps.matmul D none a b (constant (F := Ideal) S2048x1024 .f32 0x00000000#32) (ix2 r q)
      = ∑ j : Fin 256, a (ix2 r j) * b (ix2 q j) := by
  rw [Ideal.matmul_constant_zero_apply, ← Equiv.sum_comp (contrEquiv1 D 256 rfl rfl).symm]
  refine Finset.sum_congr rfl fun k _ => ?_
  have hk := contrEquiv1_symm_val D 256 rfl rfl k
  have el : D.lhsIdx (ix2 r q) ((contrEquiv1 D 256 rfl rfl).symm k) = ix2 r k := funext fun a => Fin.ext (by
    match a with
    | ⟨0, _⟩ => exact lhs_0 _ _
    | ⟨1, _⟩ => exact (lhs_1 _ _).trans hk)
  have er : D.rhsIdx (ix2 r q) ((contrEquiv1 D 256 rfl rfl).symm k) = ix2 q k := funext fun a => Fin.ext (by
    match a with
    | ⟨0, _⟩ => exact rhs_0 _ _
    | ⟨1, _⟩ => exact (rhs_1 _ _).trans hk)
  rw [el, er]

/-- The zero block. -/
theorem pay1_at (i : S2048x1024.Idx) : k0_pay1 (F := Ideal) i = 0 := by
  unfold k0_pay1
  rw [shapeCast_self]
  exact Ideal.ofBits_zero_f32

/-- The update of the accumulator. -/
theorem pay2_at (v3 : Vec Ideal S1024x256 .f32) (v5 : Vec Ideal S1024x256 .bf16) (v8 : Vec Ideal S2048x256 .f32)
    (v10 : Vec Ideal S2048x1024 .f32) (r : Fin 2048) (q : Fin 1024) :
    k0_pay2 (F := Ideal) v3 v5 v8 v10 (ix2 r q)
      = v10 (ix2 r q) + ∑ j : Fin 256, v8 (ix2 r j) * (v3 (ix2 q j) * v5 (ix2 q j)) := by
  unfold k0_pay2
  rw [shapeCast_self, shapeCast_self, addf_apply]
  exact congrArg (v10 (ix2 r q) + ·) (matmul_at _ _ r q)

/-- The output block. -/
theorem pay3_at (v19 : Vec Ideal S2048x1024 .f32) (v20 : Vec Ideal S1x1024 .f32) (r : Fin 2048) (q : Fin 1024) :
    k0_pay3 (F := Ideal) v19 v20 (ix2 r q) = v19 (ix2 r q) - v20 (ix2 (0 : Fin 1) q) := by
  unfold k0_pay3
  rw [shapeCast_self, subf_apply]
  refine congrArg (v19 (ix2 r q) - ·) ?_
  exact broadcastTo_apply v20 broadcasts_S1x1024_S2048x1024 (ix2 r q) (ix2 (0 : Fin 1) q) (fun a => match a with
    | ⟨0, _⟩ => by show 0 = if (1 : Nat) = 1 then 0 else _; rw [if_pos rfl]
    | ⟨1, _⟩ => by show q.val = if (1024 : Nat) = 1 then 0 else q.val; rw [if_neg (by decide)])

end Cert.KernelIdeal.PayloadAt

end
-- ==== Proof.Spec.lean ====
/-
  The result both programs compute, as one function of the four argument arrays, entry by entry:
  entry (p, o) is  Σ_k x(p, k) · (w(o, k) · m(o, k))  −  b(o),  the mask word m(o, k) read as a signed integer.
  The contraction axis of length 4096 is sixteen consecutive bands of 256: the sum over it is the sum, band by band,
  of the bands' sums. Only commutativity and associativity of + on the extended reals are used, so nothing here asks
  the entries to be finite.
-/
import Idealize.ShloMosaic.PureOps.Ideal
import Idealize.ShloMosaic.Lib.ValueIdx

noncomputable section

namespace Cert.MaskedLinear

open Idealize.ShloMosaic Idealize.ShloMosaic.ValueIdx

/-- The square arrays (x, w, the mask, the result) and the bias vector. -/
abbrev Sq : Shape := ⟨2, ![4096, 4096]⟩
abbrev Sv : Shape := ⟨1, ![4096]⟩

/-- One product of the contraction: x(p, k) · (w(o, k) · m(o, k)). -/
def term (x w : Sq.Idx → EReal) (msk : Sq.Idx → BitVec 32) (p o k : Fin 4096) : EReal :=
  x (ix2 p k) * (w (ix2 o k) * (((msk (ix2 o k)).toInt : ℝ) : EReal))

/-- The result array: row p of x against row o of the masked weight, minus the bias of column o. -/
def G (x w : Sq.Idx → EReal) (b : Sv.Idx → EReal) (msk : Sq.Idx → BitVec 32) : Sq.Idx → EReal := fun i =>
  (∑ k : Fin 4096, term x w msk (i 0) (i 1) k) - b (ix1 (i 1))

/-- Position j of band kb of the contraction axis: 256·kb + j (the band number taken mod 16, so that it is an index
    for every natural kb). -/
def kcol (kb : ℕ) (j : Fin 256) : Fin 4096 :=
  ⟨256 * (kb % 16) + j.val, by have h1 := Nat.mod_lt kb (show 0 < 16 by norm_num); have h2 := j.isLt; omega⟩

/-- The sum of the products of band kb. -/
def bandSum (x w : Sq.Idx → EReal) (msk : Sq.Idx → BitVec 32) (p o : Fin 4096) (kb : ℕ) : EReal :=
  ∑ j : Fin 256, term x w msk p o (kcol kb j)

/-- A sum over the 4096 positions is the sum over the sixteen bands of the sums over a band's 256 positions. -/
theorem sum_bands {M : Type*} [AddCommMonoid M] (f : Fin 4096 → M) :
    ∑ kb ∈ Finset.range 16, ∑ j : Fin 256, f (kcol kb j) = ∑ k : Fin 4096, f k := by
  rw [Finset.sum_range (fun kb => ∑ j : Fin 256, f (kcol kb j)), ← Fintype.sum_prod_type']
  refine Fintype.sum_equiv (finProdFinEquiv (m := 16) (n := 256)) _ _ fun y => ?_
  refine congrArg f (Fin.ext ?_)
  show 256 * (y.1.val % 16) + y.2.val = y.2.val + 256 * y.1.val
  rw [Nat.mod_eq_of_lt y.1.isLt, Nat.add_comm]

/-- So the sixteen band sums add up to the whole contraction. -/
theorem sum_bandSum (x w : Sq.Idx → EReal) (msk : Sq.Idx → BitVec 32) (p o : Fin 4096) :
    ∑ kb ∈ Finset.range 16, bandSum x w msk p o kb = ∑ k : Fin 4096, term x w msk p o k :=
  sum_bands (term x w msk p o)

end Cert.MaskedLinear

end
-- ==== Proof.Blocks.lean ====
/-
  Where the blocks of a grid point sit in the arrays. The grid is 2 × 4 × 16, walked row-major: point n is row tile
  n / 64, column tile (n / 16) mod 4, band n mod 16 of the contraction. At point n
    the x block holds rows 2048·(n / 64) … of x, columns 256·(n mod 16) … ;
    the weight and mask blocks hold rows 1024·((n / 16) mod 4) … of their arrays, the same columns;
    the bias block holds columns 1024·((n / 16) mod 4) … of the one bias row.
  Two of the staged arrays are written by host operations before the call: the bias as one row (a reshape of the
  vector) and the mask converted to a float.
-/
import proofs.«163842_j4449586118868_2_alg».proof.Proof.Gen.KernelIdeal.Frame
import proofs.«163842_j4449586118868_2_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem

namespace Cert.KernelIdeal.Blocks

open Cert.KernelIdeal Cert.KernelIdeal.Gen Cert.MaskedLinear Idealize.ShloMosaic.ValueIdx

variable {F : FTy → Type} [FloatOps F]
variable (m : (ℓ : Loc nD τ sig) → Buf (Elt F) ℓ)

/-- Row r of point n's row tile, as a row of the arrays x and result. -/
def rowOf (n : ℕ) (r : Fin 2048) : Fin 4096 :=
  ⟨2048 * (n / 64 % 2) + r.val, by have h1 := Nat.mod_lt (n / 64) (show 0 < 2 by norm_num); have h2 := r.isLt; omega⟩

/-- Column q of point n's column tile, as a column of the result (a row of the weight and the mask). -/
def colOf (n : ℕ) (q : Fin 1024) : Fin 4096 :=
  ⟨1024 * (n / 16 % 4) + q.val, by have h1 := Nat.mod_lt (n / 16) (show 0 < 4 by norm_num); have h2 := q.isLt; omega⟩

/-- The printed index maps at point t, decided once over the 128 points. -/
theorem idx_facts : ∀ t : Fin cfg0.N,
    win0_0.index t (0 : Fin 2) = t.val / 64 % 2 ∧ win0_0.index t (1 : Fin 2) = t.val % 16
    ∧ win0_1.index t (0 : Fin 2) = t.val / 16 % 4 ∧ win0_1.index t (1 : Fin 2) = t.val % 16
    ∧ win0_2.index t (0 : Fin 2) = t.val / 16 % 4 ∧ win0_2.index t (1 : Fin 2) = t.val % 16
    ∧ win0_3.index t (0 : Fin 2) = 0 ∧ win0_3.index t (1 : Fin 2) = t.val / 16 % 4
    ∧ win0_4.index t (0 : Fin 2) = t.val / 64 % 2 ∧ win0_4.index t (1 : Fin 2) = t.val / 16 % 4 :=
  (by decide +kernel : ∀ t : Fin grid0.N, _)

/-- The x block at point t. -/
theorem iblk0_at (c : Dev nD) (t : Fin cfg0.N) (r : Fin 2048) (j : Fin 256) :
    (iblk m c 0 t : Vec F S2048x256 .f32) (ix2 r j) = V m c main_arg0 (ix2 (rowOf t.val r) (kcol t.val j)) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 2048 + 1 * r.val = 2048 * (t.val / 64 % 2) + r.val; omega
  | ⟨1, _⟩ => show win0_0.index t (1 : Fin 2) * 256 + 1 * j.val = 256 * (t.val % 16) + j.val; omega

/-- The weight block at point t. -/
theorem iblk1_at (c : Dev nD) (t : Fin cfg0.N) (q : Fin 1024) (j : Fin 256) :
    (iblk m c 1 t : Vec F S1024x256 .f32) (ix2 q j) = V m c main_arg1 (ix2 (colOf t.val q) (kcol t.val j)) := by
  obtain ⟨-, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 1024 + 1 * q.val = 1024 * (t.val / 16 % 4) + q.val; omega
  | ⟨1, _⟩ => show win0_1.index t (1 : Fin 2) * 256 + 1 * j.val = 256 * (t.val % 16) + j.val; omega

/-- The mask block at point t, off the converted mask. -/
theorem iblk2_at (c : Dev nD) (t : Fin cfg0.N) (q : Fin 1024) (j : Fin 256) :
    (iblk m c 2 t : Vec F S1024x256 .bf16) (ix2 q j) = V m c main_v1 (ix2 (colOf t.val q) (kcol t.val j)) := by
  obtain ⟨-, -, -, -, e0, e1, -⟩ := idx_facts t
  unfold iblk
  rw [View.read_apply]
  show V m c main_v1 _ = V m c main_v1 _
  refine congrArg (V m c main_v1) (funext fun a => Fin.ext ?_)
  match a with
  | ⟨0, _⟩ => show win0_2.index t (0 : Fin 2) * 1024 + 1 * q.val = 1024 * (t.val / 16 % 4) + q.val; omega
  | ⟨1, _⟩ => show win0_2.index t (1 : Fin 2) * 256 + 1 * j.val = 256 * (t.val % 16) + j.val; omega

/-- The bias block at point t, off the bias row. -/
theorem iblk3_at (c : Dev nD) (t : Fin cfg0.N) (q : Fin 1024) :
    (iblk m c 3 t : Vec F S1x1024 .f32) (ix2 (0 : Fin 1) q) = V m c main_v0 (ix2 (0 : Fin 1) (colOf t.val q)) := by
  obtain ⟨-, -, -, -, -, -, e0, e1, -⟩ := idx_facts t
  unfold iblk
  rw [View.read_apply]
  show V m c main_v0 _ = V m c main_v0 _
  refine congrArg (V m c main_v0) (funext fun a => Fin.ext ?_)
  match a with
  | ⟨0, _⟩ => show win0_3.index t (0 : Fin 2) * 1 + 1 * 0 = 0; omega
  | ⟨1, _⟩ => show win0_3.index t (1 : Fin 2) * 1024 + 1 * q.val = 1024 * (t.val / 16 % 4) + q.val; omega

/-- The converted mask the call finds: the host's convert of the mask argument. -/
theorem V_mask (c : Dev nD) :
    (V m c main_v1 : S4096x4096.Idx → Elt F .bf16) = sitofp .bf16 (m ((c : Thread nD τ).loc main_arg3)) := by
  dsimp only [Gen.V, Gen.hostOps0]
  after_results

/-- The bias row the call finds: the host's reshape of the bias argument. -/
theorem V_bias (c : Dev nD) :
    (V m c main_v0 : S1x4096.Idx → Elt F .f32) = shapeCast S1x4096 (m ((c : Thread nD τ).loc main_arg2)) shapeCasts_S4096_S1x4096 := by
  dsimp only [Gen.V, Gen.hostOps0]
  after_results
  rfl

/-- Entry (0, o) of the bias row is entry o of the bias vector. -/
theorem bias_row_at (b : S4096.Idx → Elt F .f32) (o : Fin 4096) :
    shapeCast S1x4096 b shapeCasts_S4096_S1x4096 (ix2 (0 : Fin 1) o) = b (ix1 o) := by
  rw [shapeCast_addUnit_apply (n := 1) ![4096] b shapeCasts_S4096_S1x4096 (ix2 (0 : Fin 1) o)]
  exact congrArg b (funext fun a => match a with | ⟨0, _⟩ => rfl)

end Cert.KernelIdeal.Blocks

end
-- ==== Proof.Accum.lean ====
/-
  What the scratch and the output hold after each point, on the extended reals, in terms of the four argument arrays.
  After point n the scratch entry (r, q) is the sum of the bands 0 … n mod 16 of the contraction for row
  rowOf n r of x against row colOf n q of the masked weight: the run's first point starts from zero, each later point
  adds its band (induction on the point; a point that is not the first of its run has the same row and column tile as
  the point before). After the last point of a run that is the whole contraction, and the output block is it minus the
  bias: the specification at (rowOf n r, colOf n q).
-/
import proofs.«163842_j4449586118868_2_alg».proof.Proof.Steps
import proofs.«163842_j4449586118868_2_alg».proof.Proof.PayloadAt
import proofs.«163842_j4449586118868_2_alg».proof.Proof.Blocks

noncomputable section

open Idealize.ShloMosaic Idealize.ShloMosaic.TcCoe Idealize.SL.Sem

namespace Cert.KernelIdeal.Accum

open Cert.KernelIdeal Cert.KernelIdeal.Gen Cert.MaskedLinear Idealize.ShloMosaic.ValueIdx
open Cert.KernelIdeal.Steps Cert.KernelIdeal.PayloadAt Cert.KernelIdeal.Blocks

variable (m : (ℓ : Loc nD τ sig) → Buf (Elt Ideal) ℓ)

/-- The four argument arrays on core c. -/
abbrev X (c : Dev nD) : Sq.Idx → EReal := m ((c : Thread nD τ).loc main_arg0)
abbrev W (c : Dev nD) : Sq.Idx → EReal := m ((c : Thread nD τ).loc main_arg1)
abbrev B (c : Dev nD) : Sv.Idx → EReal := m ((c : Thread nD τ).loc main_arg2)
abbrev Mk (c : Dev nD) : Sq.Idx → BitVec 32 := m ((c : Thread nD τ).loc main_arg3)

/-- A band's sum depends on the band number mod 16 only. -/
theorem bandSum_mod (x w : Sq.Idx → EReal) (msk : Sq.Idx → BitVec 32) (p o : Fin 4096) (kb : ℕ) :
    bandSum x w msk p o kb = bandSum x w msk p o (kb % 16) := by
  unfold bandSum
  refine Finset.sum_congr rfl fun j _ => congrArg _ (Fin.ext ?_)
  show 256 * (kb % 16) + j.val = 256 * (kb % 16 % 16) + j.val
  rw [Nat.mod_mod]

/-- Three blocks that hold, along row r and row q, the entries of band kb of x's row p and of the weight's and the
    converted mask's row o: their products sum to that band's sum. -/
theorem band_of_blocks (x w : Sq.Idx → EReal) (msk : Sq.Idx → BitVec 32) (p o : Fin 4096) (kb : ℕ) (r : Fin 2048) (q : Fin 1024)
    (x0 : Vec Ideal S2048x256 .f32) (x1 : Vec Ideal S1024x256 .f32) (x2 : Vec Ideal S1024x256 .bf16)
    (h0 : ∀ j : Fin 256, x0 (ix2 r j) = x (ix2 p (kcol kb j)))
    (h1 : ∀ j : Fin 256, x1 (ix2 q j) = w (ix2 o (kcol kb j)))
    (h2 : ∀ j : Fin 256, x2 (ix2 q j) = (((msk (ix2 o (kcol kb j))).toInt : ℝ) : EReal)) :
    ∑ j : Fin 256, x0 (ix2 r j) * (x1 (ix2 q j) * x2 (ix2 q j)) = bandSum x w msk p o kb := by
  unfold bandSum term
  exact Finset.sum_congr rfl fun j _ => by rw [h0, h1, h2]

/-- What point t adds at entry (r, q): band t of the contraction, for its row and column tile. -/
theorem addend (c : Dev nD) (t : Fin cfg0.N) (r : Fin 2048) (q : Fin 1024) :
    ∑ j : Fin 256, (fun (x0 : Vec Ideal S2048x256 .f32) (x1 : Vec Ideal S1024x256 .f32) (x2 : Vec Ideal S1024x256 .bf16) =>
        x0 (ix2 r j) * (x1 (ix2 q j) * x2 (ix2 q j))) (iblk m c 0 t) (iblk m c 1 t) (iblk m c 2 t)
      = bandSum (X m c) (W m c) (Mk m c) (rowOf t.val r) (colOf t.val q) t.val :=
  band_of_blocks (X m c) (W m c) (Mk m c) (rowOf t.val r) (colOf t.val q) t.val r q (iblk m c 0 t) (iblk m c 1 t) (iblk m c 2 t)
    (fun j => by rw [iblk0_at m c t r j, V_main_arg0])
    (fun j => by rw [iblk1_at m c t q j, V_main_arg1])
    (fun j => by rw [iblk2_at m c t q j, V_mask]; rfl)

/-- The first point of a run leaves its own band. -/
theorem first_at (c : Dev nD) (t : Fin cfg0.N) (h0 : t.val % 16 = 0) (r : Fin 2048) (q : Fin 1024) :
    (outsAt0 m c t.val t.isLt).2 (ix2 r q) = bandSum (X m c) (W m c) (Mk m c) (rowOf t.val r) (colOf t.val q) t.val := by
  rw [scratch_first m c t h0]
  refine (pay2_at (iblk m c 1 t) (iblk m c 2 t) (iblk m c 0 t) (k0_pay1 (F := Ideal)) r q).trans ?_
  rw [pay1_at, zero_add]
  exact addend m c t r q

/-- A later point adds its band to what the point before left. -/
theorem next_at (c : Dev nD) (t : Fin cfg0.N) (h0 : ¬t.val % 16 = 0) (r : Fin 2048) (q : Fin 1024) :
    (outsAt0 m c t.val t.isLt).2 (ix2 r q)
      = (outsAt0 m c (t.val - 1) (Nat.lt_of_le_of_lt (Nat.sub_le _ _) t.isLt)).2 (ix2 r q)
        + bandSum (X m c) (W m c) (Mk m c) (rowOf t.val r) (colOf t.val q) t.val := by
  rw [scratch_next m c t h0]
  refine (pay2_at (iblk m c 1 t) (iblk m c 2 t) (iblk m c 0 t) _ r q).trans ?_
  exact congrArg (_ + ·) (addend m c t r q)

/-- THE ACCUMULATION: the scratch after point n. -/
theorem scratch_at (c : Dev nD) : ∀ (n : ℕ) (h : n < cfg0.N) (r : Fin 2048) (q : Fin 1024),
    (outsAt0 m c n h).2 (ix2 r q)
      = ∑ kb ∈ Finset.range (n % 16 + 1), bandSum (X m c) (W m c) (Mk m c) (rowOf n r) (colOf n q) kb := by
  intro n
  induction n with
  | zero =>
    intro h r q
    refine (first_at m c ⟨0, h⟩ rfl r q).trans ?_
    exact (Finset.sum_range_one _).symm
  | succ n ih =>
    intro h r q
    have hN : n + 1 < 128 := lt_of_lt_of_eq h (show cfg0.N = 128 from N_0)
    by_cases h0 : (n + 1) % 16 = 0
    · refine (first_at m c ⟨n + 1, h⟩ h0 r q).trans ?_
      show bandSum _ _ _ _ _ (n + 1) = _
      rw [bandSum_mod _ _ _ _ _ (n + 1), h0]
      exact (Finset.sum_range_one _).symm
    · refine (next_at m c ⟨n + 1, h⟩ h0 r q).trans ?_
      refine (congrArg (· + _) (ih (Nat.lt_of_succ_lt h) r q)).trans ?_
      have er : rowOf n r = rowOf (n + 1) r := Fin.ext (by
        show 2048 * (n / 64 % 2) + r.val = 2048 * ((n + 1) / 64 % 2) + r.val; omega)
      have ec : colOf n q = colOf (n + 1) q := Fin.ext (by
        show 1024 * (n / 16 % 4) + q.val = 1024 * ((n + 1) / 16 % 4) + q.val; omega)
      show _ + bandSum _ _ _ (rowOf (n + 1) r) (colOf (n + 1) q) (n + 1) = _
      rw [er, ec, bandSum_mod _ _ _ _ _ (n + 1), show (n + 1) % 16 = n % 16 + 1 by omega]
      exact (Finset.sum_range_succ _ _).symm

/-- THE OUTPUT BLOCK at the last point of a run: the specification at the block's place in the result. -/
theorem out_at (c : Dev nD) (t : Fin cfg0.N) (h15 : t.val % 16 = 15) (r : Fin 2048) (q : Fin 1024) :
    (outsAt0 m c t.val t.isLt).1 (ix2 r q)
      = G (X m c) (W m c) (B m c) (Mk m c) (ix2 (rowOf t.val r) (colOf t.val q)) := by
  rw [out_last m c t h15]
  refine (pay3_at (outsAt0 m c t.val t.isLt).2 (iblk m c 3 t) r q).trans ?_
  rw [scratch_at m c t.val t.isLt r q, h15, iblk3_at m c t q, V_bias, bias_row_at]
  show (∑ kb ∈ Finset.range 16, _) - _ = _
  rw [sum_bandSum]
  rfl

end Cert.KernelIdeal.Accum

end
-- ==== Proof.KernelValue.lean ====
/-
  The kernel's result array after the run is the specification of the four arguments.
  The output window is written back at the last point of each run over the contraction (n ≡ 15 mod 16), and what is
  written back there is the block of the specification at rows 2048·(n / 64) …, columns 1024·((n / 16) mod 4) … .
  The eight such blocks tile the 4096 × 4096 result: entry (p, o) lies in the block written back at point
  64·(p / 2048) + 16·(o / 1024) + 15.
-/
import proofs.«163842_j4449586118868_2_alg».proof.Proof.Accum
import proofs.«163842_j4449586118868_2_alg».proof.Proof.Gen.KernelIdeal.Value

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.MaskedLinear Idealize.ShloMosaic.ValueIdx
open Cert.KernelIdeal.Accum Cert.KernelIdeal.Blocks

variable (m : (ℓ : Loc nD τ sig) → Buf (Elt Ideal) ℓ) (ρ : Dev nD → PrngReg)

/-- What a point that writes back writes is its block of the specification. -/
theorem flushed_eq (c : Dev nD) (t : Fin cfg0.N) (hf : (cfg0.win 4).flush t = true) :
    (dats m 0 c).flushed 4 t = ((cfg0.win 4).blk t).view.read (Elt Ideal) (G (X m c) (W m c) (B m c) (Mk m c)) := by
  have h15 : t.val % 16 = 15 := (flush0_4 t).mp hf
  obtain ⟨-, -, -, -, -, -, -, -, e0, e1⟩ := idx_facts t
  rw [Value.flushed4]
  funext y
  rw [View.read_apply]
  show (outsAt0 m c t.val t.isLt).1 y = _
  refine ((congrArg (outsAt0 m c t.val t.isLt).1 (eq_ix2 (n0 := 2048) (n1 := 1024) y)).trans
    (out_at m c t h15 (y 0) (y 1))).trans ?_
  refine congrArg (G (X m c) (W m c) (B m c) (Mk m c)) (funext fun a => Fin.ext ?_)
  match a with
  | ⟨0, _⟩ => show 2048 * (t.val / 64 % 2) + (y 0).val = win0_4.index t (0 : Fin 2) * 2048 + 1 * (y 0).val; omega
  | ⟨1, _⟩ => show 1024 * (t.val / 16 % 4) + (y 1).val = win0_4.index t (1 : Fin 2) * 1024 + 1 * (y 1).val; omega

/-- An entry of the result is in point t's block iff each coordinate is in the block's range on its axis. -/
theorem mem_blk (t : Fin cfg0.N) (i : S4096x4096.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole main_v2).slice (win0_4.rect t)).set ↔ _
  rw [View.set_slice_whole, Rect.mem_set_unit]
  exact Iff.rfl

/-- Every entry of the result is in the block some point writes back. -/
theorem cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 128 := N_0
  obtain ⟨t, ht⟩ : ∃ t : Fin cfg0.N, t.val = 64 * ((i 0).val / 2048) + 16 * ((i 1).val / 1024) + 15 :=
    ⟨⟨64 * ((i 0).val / 2048) + 16 * ((i 1).val / 1024) + 15, by rw [hN]; omega⟩, rfl⟩
  obtain ⟨-, -, -, -, -, -, -, -, e0, e1⟩ := idx_facts t
  refine ⟨t, (flush0_4 t).mpr (by omega), ?_⟩
  rw [mem_blk]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 1024 ≤ (i 1).val ∧ (i 1).val < win0_4.index t (1 : Fin 2) * 1024 + 1024
    omega

/-- THE RESULT ARRAY after the run. -/
theorem final (c : Dev nD) : (dats m 0 c).arrAt 4 cfg0.N = G (X m c) (W m c) (B m c) (Mk m c) :=
  (dats m 0 c).arrAt_eq_of_cover 4 (G (X m c) (W m c) (B m c) (Mk m c)) (flushed_eq m c) cover

/-- The run, read: every execution ends with the result array at the specification of the arguments, which are
    left as they were. -/
theorem run : θ_run defs (onTc (τ := τ) (main (F := Ideal))) ⟨m, fun _ => 0, ρ⟩ fun r => ∀ c : Dev nD,
      r.2.mem ((c : Thread nD τ).loc main_v2) = G (X m c) (W m c) (B m c) (Mk m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefIsSpec.lean ====
/-
  The reference computes the specification: its six host operations, read at an entry (p, o) one stage at a time,
  are  Σ_k x(p, k) · (w(o, k) · m(o, k))  (the mask converted to a float, multiplied into the weight, then the
  dot_general contracting axis 1 of both operands)  minus  b(o)  (the bias broadcast to a row, then down the rows).
-/
import proofs.«163842_j4449586118868_2_alg».proof.Proof.Gen.ReferenceIdeal.Read
import proofs.«163842_j4449586118868_2_alg».proof.Proof.Spec

noncomputable section

namespace Cert.ReferenceIdeal.RefValue

open Cert.ReferenceIdeal Cert.ReferenceIdeal.Read Cert.MaskedLinear Idealize.ShloMosaic Idealize.ShloMosaic.ValueIdx

/-- The reference's result array is the specification of its four arguments. -/
theorem ref_eq (x0 x1 : (⟨S4096x4096, .f32⟩ : BufTy).Contents (Elt Ideal)) (x2 : (⟨S4096, .f32⟩ : BufTy).Contents (Elt Ideal))
    (x3 : (⟨S4096x4096, .i32⟩ : BufTy).Contents (Elt Ideal)) :
    val_main_v5 (F := Ideal) x0 x1 x2 x3 = G x0 x1 x2 x3 := by
  funext i
  obtain ⟨p, o, rfl⟩ : ∃ (p o : Fin 4096), i = ix2 p o := ⟨i 0, i 1, eq_ix2 i⟩
  have e3 : idx_main_v3 (idx_main_v4 (ix2 p o)) = ix1 o := funext fun a => match a with | ⟨0, _⟩ => rfl
  have el : ∀ k : Fin 4096, lidx_main_v2 (ix2 p o) k = ix2 p k := fun k => funext fun a => match a with
    | ⟨0, _⟩ => rfl
    | ⟨1, _⟩ => rfl
  have er : ∀ k : Fin 4096, ridx_main_v2 (ix2 p o) k = ix2 o k := fun k => funext fun a => match a with
    | ⟨0, _⟩ => rfl
    | ⟨1, _⟩ => rfl
  rw [val_main_v5_apply, val_main_v2_apply, val_main_v4_apply, val_main_v3_apply, e3]
  show (∑ k : Fin 4096, _) - x2 (ix1 o) = (∑ k : Fin 4096, term x0 x1 x3 p o k) - x2 (ix1 o)
  refine congrArg (· - x2 (ix1 o)) (Finset.sum_congr rfl fun k _ => ?_)
  rw [el, er]
  rfl

end Cert.ReferenceIdeal.RefValue

end
-- ==== Proof.lean ====
/-
  A masked linear layer:  out(p, o) = Σ_k x(p, k) · (w(o, k) · m(o, k)) − b(o)  on 4096 × 4096 arrays, the mask an
  integer array read signed.

  The kernel walks a 2 × 4 × 16 grid. A point (i, j, k) holds a [2048, 256] block of x, [1024, 256] blocks of the
  weight and of the mask (converted to a float by a host operation before the call), and a [1, 1024] block of the bias
  (reshaped to a row by a host operation before the call). It keeps a [2048, 1024] accumulator across the sixteen
  points of a run over k: zeroed at k = 0, increased at every k by the product of the x block with the masked weight
  block contracted along their 256 columns, and at k = 15 stored, minus the bias row, into the output block (i, j).
  The reference converts the mask, multiplies it into the weight, contracts axis 1 of x with axis 1 of the product in
  one dot_general, and subtracts the bias broadcast down the rows.

  On the extended reals a change of float format is the identity, the conversion of the mask is the integer itself in
  either format, and both programs form the same products x(p, k) · (w(o, k) · m(o, k)); they differ only in how the
  4096 products of an entry are grouped: sixteen bands of 256 added one band at a time from zero, against one sum.
  Addition on the extended reals is commutative and associative and 0 + s = s, so the two groupings agree whatever the
  entries are: the precondition is never opened.

  The three frames and the kernel's run with its result array named are generated, as are the reference's run and its
  stages read at an index. The hand modules: Spec (the function and the band decomposition of the sum), RefIsSpec (the
  reference's last stage is that function), Pieces and Steps (what a call of the body leaves, as its payloads),
  PayloadAt (the payloads at an entry), Blocks (where a point's blocks sit in the arrays), Accum (the accumulator
  after each point, by induction on the point), KernelValue (the blocks written back tile the result).
-/
import proofs.«163842_j4449586118868_2_alg».proof.Defs
import proofs.«163842_j4449586118868_2_alg».proof.Proof.Gen.Kernel
import proofs.«163842_j4449586118868_2_alg».proof.Proof.Gen.Kernel.Skeleton
import proofs.«163842_j4449586118868_2_alg».proof.Proof.Gen.Kernel.Launch
import proofs.«163842_j4449586118868_2_alg».proof.Proof.Gen.Kernel.Points
import proofs.«163842_j4449586118868_2_alg».proof.Proof.Gen.Kernel.Frame
import proofs.«163842_j4449586118868_2_alg».proof.Proof.Gen.KernelIdeal
import proofs.«163842_j4449586118868_2_alg».proof.Proof.Gen.KernelIdeal.Skeleton
import proofs.«163842_j4449586118868_2_alg».proof.Proof.Gen.KernelIdeal.Launch
import proofs.«163842_j4449586118868_2_alg».proof.Proof.Gen.KernelIdeal.Points
import proofs.«163842_j4449586118868_2_alg».proof.Proof.Gen.KernelIdeal.Frame
import proofs.«163842_j4449586118868_2_alg».proof.Proof.Gen.ReferenceIdeal
import proofs.«163842_j4449586118868_2_alg».proof.Proof.Gen.KernelIdeal.Value
import proofs.«163842_j4449586118868_2_alg».proof.Proof.Gen.ReferenceIdeal.Run
import proofs.«163842_j4449586118868_2_alg».proof.Proof.Gen.ReferenceIdeal.Read
import proofs.«163842_j4449586118868_2_alg».proof.Proof.Gen.Pre_finite_inputs
import proofs.«163842_j4449586118868_2_alg».proof.Proof.KernelValue
import proofs.«163842_j4449586118868_2_alg».proof.Proof.RefIsSpec
import Idealize.ShloMosaic.Adequacy
import Idealize.ShloMosaic.Init

noncomputable section

namespace Cert.Proof

open Idealize.ShloMosaic Idealize.SL.Sem
open Cert.MaskedLinear Cert.KernelIdeal.Accum

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the result array at the specification of arguments that agree. -/
theorem algebraic : Cert.algebraic_KernelIdeal_ReferenceIdeal := by
  intro m ρ m' ρ' _ hagree
  refine ⟨fun c => G (X m c) (W m c) (B m c) (Mk m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
